-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩

abbrev nBuf : Space → Nat
  | .hbm => 80
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S1650000, .i32⟩
  | .hbm, ⟨25, _⟩ => ⟨S1650000, .i1⟩
  | .hbm, ⟨26, _⟩ => ⟨S_, .i32⟩
  | .hbm, ⟨27, _⟩ => ⟨S1650000, .i32⟩
  | .hbm, ⟨28, _⟩ => ⟨S1650000, .i32⟩
  | .hbm, ⟨29, _⟩ => ⟨S1650000, .i32⟩
  | .hbm, ⟨30, _⟩ => ⟨S1650000x1, .i32⟩
  | .hbm, ⟨31, _⟩ => ⟨S1650000, .f32⟩
  | .hbm, ⟨32, _⟩ => ⟨S_, .i32⟩
  | .hbm, ⟨33, _⟩ => ⟨S1650000, .i32⟩
  | .hbm, ⟨34, _⟩ => ⟨S1650000, .i1⟩
  | .hbm, ⟨35, _⟩ => ⟨S_, .i32⟩
  | .hbm, ⟨36, _⟩ => ⟨S1650000, .i32⟩
  | .hbm, ⟨37, _⟩ => ⟨S1650000, .i32⟩
  | .hbm, ⟨38, _⟩ => ⟨S1650000, .i32⟩
  | .hbm, ⟨39, _⟩ => ⟨S1650000x1, .i32⟩
  | .hbm, ⟨40, _⟩ => ⟨S1650000, .f32⟩
  | .hbm, ⟨41, _⟩ => ⟨S1650000, .f32⟩
  | .hbm, ⟨42, _⟩ => ⟨S50000x128, .f32⟩
  | .hbm, ⟨43, _⟩ => ⟨S_, .i32⟩
  | .hbm, ⟨44, _⟩ => ⟨S1650000, .i32⟩
  | .hbm, ⟨45, _⟩ => ⟨S1650000, .i1⟩
  | .hbm, ⟨46, _⟩ => ⟨S_, .i32⟩
  | .hbm, ⟨47, _⟩ => ⟨S1650000, .i32⟩
  | .hbm, ⟨48, _⟩ => ⟨S1650000, .i32⟩
  | .hbm, ⟨49, _⟩ => ⟨S1650000, .i32⟩
  | .hbm, ⟨50, _⟩ => ⟨S1650000x1, .i32⟩
  | .hbm, ⟨51, _⟩ => ⟨S1650000x128, .f32⟩
  | .hbm, ⟨52, _⟩ => ⟨S1650000x1, .f32⟩
  | .hbm, ⟨53, _⟩ => ⟨S1650000x128, .f32⟩
  | .hbm, ⟨54, _⟩ => ⟨S1650000x128, .f32⟩
  | .hbm, ⟨55, _⟩ => ⟨S_, .f32⟩
  | .hbm, ⟨56, _⟩ => ⟨S50000x128, .f32⟩
  | .hbm, ⟨57, _⟩ => ⟨S1650000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .i32⟩
  | .hbm, ⟨63, _⟩ => ⟨S1650000, .i32⟩
  | .hbm, ⟨64, _⟩ => ⟨S1650000, .i1⟩
  | .hbm, ⟨65, _⟩ => ⟨S_, .i32⟩
  | .hbm, ⟨66, _⟩ => ⟨S1650000, .i32⟩
  | .hbm, ⟨67, _⟩ => ⟨S1650000, .i32⟩
  | .hbm, ⟨68, _⟩ => ⟨S1650000, .i32⟩
  | .hbm, ⟨69, _⟩ => ⟨S1650000x1, .i32⟩
  | .hbm, ⟨70, _⟩ => ⟨S1650000x128, .f32⟩
  | .hbm, ⟨71, _⟩ => ⟨S1650000x1, .f32⟩
  | .hbm, ⟨72, _⟩ => ⟨S1650000x128, .f32⟩
  | .hbm, ⟨73, _⟩ => ⟨S1650000x128, .f32⟩
  | .hbm, ⟨74, _⟩ => ⟨S_, .f32⟩
  | .hbm, ⟨75, _⟩ => ⟨S50000x128, .f32⟩
  | .hbm, ⟨76, _⟩ => ⟨S1650000x1, .i32⟩
  | .hbm, ⟨77, _⟩ => ⟨S50000x128, .f32⟩
  | .hbm, ⟨78, _⟩ => ⟨S1x128, .f32⟩
  | .hbm, ⟨79, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S1650000, .i32⟩
  | .hbm, ⟨25, _⟩ => ⟨S1650000, .i1⟩
  | .hbm, ⟨26, _⟩ => ⟨S_, .i32⟩
  | .hbm, ⟨27, _⟩ => ⟨S1650000, .i32⟩
  | .hbm, ⟨28, _⟩ => ⟨S1650000, .i32⟩
  | .hbm, ⟨29, _⟩ => ⟨S1650000, .i32⟩
  | .hbm, ⟨30, _⟩ => ⟨S1650000x1, .i32⟩
  | .hbm, ⟨31, _⟩ => ⟨S1650000, .f32⟩
  | .hbm, ⟨32, _⟩ => ⟨S_, .i32⟩
  | .hbm, ⟨33, _⟩ => ⟨S1650000, .i32⟩
  | .hbm, ⟨34, _⟩ => ⟨S1650000, .i1⟩
  | .hbm, ⟨35, _⟩ => ⟨S_, .i32⟩
  | .hbm, ⟨36, _⟩ => ⟨S1650000, .i32⟩
  | .hbm, ⟨37, _⟩ => ⟨S1650000, .i32⟩
  | .hbm, ⟨38, _⟩ => ⟨S1650000, .i32⟩
  | .hbm, ⟨39, _⟩ => ⟨S1650000x1, .i32⟩
  | .hbm, ⟨40, _⟩ => ⟨S1650000, .f32⟩
  | .hbm, ⟨41, _⟩ => ⟨S1650000, .f32⟩
  | .hbm, ⟨42, _⟩ => ⟨S50000x128, .f32⟩
  | .hbm, ⟨43, _⟩ => ⟨S_, .i32⟩
  | .hbm, ⟨44, _⟩ => ⟨S1650000, .i32⟩
  | .hbm, ⟨45, _⟩ => ⟨S1650000, .i1⟩
  | .hbm, ⟨46, _⟩ => ⟨S_, .i32⟩
  | .hbm, ⟨47, _⟩ => ⟨S1650000, .i32⟩
  | .hbm, ⟨48, _⟩ => ⟨S1650000, .i32⟩
  | .hbm, ⟨49, _⟩ => ⟨S1650000, .i32⟩
  | .hbm, ⟨50, _⟩ => ⟨S1650000x1, .i32⟩
  | .hbm, ⟨51, _⟩ => ⟨S1650000x128, .f32⟩
  | .hbm, ⟨52, _⟩ => ⟨S1650000x1, .f32⟩
  | .hbm, ⟨53, _⟩ => ⟨S1650000x128, .f32⟩
  | .hbm, ⟨54, _⟩ => ⟨S1650000x128, .f32⟩
  | .hbm, ⟨55, _⟩ => ⟨S_, .f32⟩
  | .hbm, ⟨56, _⟩ => ⟨S50000x128, .f32⟩
  | .hbm, ⟨57, _⟩ => ⟨S1650000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S1650000, .i32⟩
  | .hbm, ⟨68, _⟩ => ⟨S1650000, .i1⟩
  | .hbm, ⟨69, _⟩ => ⟨S_, .i32⟩
  | .hbm, ⟨70, _⟩ => ⟨S1650000, .i32⟩
  | .hbm, ⟨71, _⟩ => ⟨S1650000, .i32⟩
  | .hbm, ⟨72, _⟩ => ⟨S1650000, .i32⟩
  | .hbm, ⟨73, _⟩ => ⟨S1650000x1, .i32⟩
  | .hbm, ⟨74, _⟩ => ⟨S1650000x128, .f32⟩
  | .hbm, ⟨75, _⟩ => ⟨S1650000x1, .f32⟩
  | .hbm, ⟨76, _⟩ => ⟨S1650000x128, .f32⟩
  | .hbm, ⟨77, _⟩ => ⟨S1650000x128, .f32⟩
  | .hbm, ⟨78, _⟩ => ⟨S_, .f32⟩
  | .hbm, ⟨79, _⟩ => ⟨S50000x128, .f32⟩
  | .hbm, ⟨80, _⟩ => ⟨S1650000x1, .i32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S50000x128, .f32⟩
  | .hbm, ⟨91, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_cst : Ref sig .tc := ⟨.hbm, 85, rfl⟩
abbrev main_call1_v0 : Ref sig .tc := ⟨.hbm, 86, rfl⟩
abbrev main_v64 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

class Facts : Prop extends Facts₀ where

variable [Facts]
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibPlainDot.lean ====
/-
  The host's plain matrix product read at an index, at the ideal values.

  For the ordinary dimension numbers — an [A, K] matrix times a [K, B] matrix, the left operand's columns contracted with
  the right operand's rows, no batch axis — the host's `dot_general` is, at (p, e), the sum over k of L(p, k) · R(k, e):
  the same `Fin K`-indexed sum a `tpu.matmul` into the zero accumulator gives, so the two meet term by term.
-/
import Idealize.ShloMosaic.PureOps.Ideal.Laws
import Idealize.ShloMosaic.Lib.ValueIdx
import proofs.«151534_j26800595927569_1_alg».proof.Proof.LibPlainMatmul

noncomputable section

namespace Idealize.ShloMosaic.ValueIdx

open Idealize.ShloMosaic

/-- A plain [A, K] × [K, B] host `dot_general`, read at (p, e): Σ_k L(p, k) · R(k, e). -/
theorem dotGeneral_plain_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    Host.dotGeneral (DotDims.plain A K B) prec lhs rhs (ix2 p e)
      = ∑ k : Fin K, lhs (ix2 p k) * rhs (ix2 k e) := by
  show FloatOps.dotGeneral (DotDims.plain A K B) prec .single lhs rhs (ix2 p e) = _
  rw [Ideal.dotGeneral_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRowBias.lean ====
/-
  A bias row laid over the rows of a matrix, in the forms a kernel body and a host program print it, read at an index:
  • the host's `broadcast_in_dim` of a row [1, b] along both axes to [a, b] reads, at (p, c), the row's entry c;
  • the host's `broadcast_in_dim` of a vector [b] onto the last axis of [1, b] reads, at (u, c), the vector's entry c;
  • so a vector cast to the row [1, b] and the vector broadcast to [1, b] are one array;
  • a layer's epilogue  max (x + row, z)  in the body's form (identity casts, `vector.broadcast` of the row, a splat z)
    and in the host's form (`broadcast_in_dim` of the row, of a rank-0 constant) read at (p, c) as
    max (x(p, c) + row(0, c), z).
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibRowBias

open Idealize.ShloMosaic Idealize.ShloMosaic.ValueIdx

variable {α : Type}

/-- A row [1, b] broadcast by the host along both axes to [a, b] reads, at (p, c), the row's entry c. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector [b] broadcast by the host onto the last axis of [1, b] reads, at (u, c), the vector's entry c. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A vector cast to the row [1, b] is the vector broadcast to [1, b]: both hold the vector's entry c at (u, c). -/
theorem shapeCast_row_eq_broadcastInDim {b : ℕ} (x : (⟨1, ![b]⟩ : Shape).Idx → α)
    (h1 : (⟨1, ![b]⟩ : Shape).ShapeCasts ⟨2, ![1, b]⟩) (h2 : (⟨1, ![b]⟩ : Shape).BroadcastsInDim ⟨2, ![1, b]⟩ ![1]) :
    shapeCast ⟨2, ![1, b]⟩ x h1 = broadcastInDim ⟨2, ![1, b]⟩ ![1] h2 x := by
  funext j
  obtain ⟨u, c, rfl⟩ : ∃ (u : Fin 1) (c : Fin b), j = ix2 u c := ⟨j 0, j 1, eq_ix2 j⟩
  rw [shapeCast_a_1a_apply, broadcastInDim_b_1b_apply]

/-- The body's epilogue max (x + row, z) — identity casts of both operands, the row laid over the a rows by
    `vector.broadcast`, z a splat — read at (p, c). -/
theorem body_biasMax_apply {a b : ℕ} (x : FVec Ideal ⟨2, ![a, b]⟩ .f32) (v : FVec Ideal ⟨2, ![1, b]⟩ .f32)
    (h1 : (⟨2, ![a, b]⟩ : Shape).ShapeCasts ⟨2, ![a, b]⟩) (h2 : (⟨2, ![1, b]⟩ : Shape).ShapeCasts ⟨2, ![1, b]⟩)
    (h3 : (⟨2, ![1, b]⟩ : Shape).Broadcasts ⟨2, ![a, b]⟩) (z : Ideal .f32) (p : Fin a) (c : Fin b) :
    maximumf (addf (shapeCast ⟨2, ![a, b]⟩ x h1) (broadcastTo ⟨2, ![a, b]⟩ (shapeCast ⟨2, ![1, b]⟩ v h2) h3))
        (broadcast ⟨2, ![a, b]⟩ z) (ix2 p c)
      = max (x (ix2 p c) + v (ix2 (0 : Fin 1) c)) z := by
  rw [shapeCast_self, shapeCast_self]
  show max (x (ix2 p c) + broadcastTo ⟨2, ![a, b]⟩ v h3 (ix2 p c)) z = _
  rw [broadcastTo_1b_ab_apply]

/-- The host's epilogue max (x + row, z) — the row laid over the a rows by `broadcast_in_dim`, z a rank-0 constant
    broadcast to every entry — read at (p, c). -/
theorem host_biasMax_apply {a b : ℕ} (x : FVec Ideal ⟨2, ![a, b]⟩ .f32) (v : FVec Ideal ⟨2, ![1, b]⟩ .f32)
    (h4 : (⟨2, ![1, b]⟩ : Shape).BroadcastsInDim ⟨2, ![a, b]⟩ ![0, 1])
    (h0 : (⟨0, ![]⟩ : Shape).BroadcastsInDim ⟨2, ![a, b]⟩ ![]) (z : FVec Ideal ⟨0, ![]⟩ .f32) (p : Fin a) (c : Fin b) :
    maximumf (addf x (broadcastInDim ⟨2, ![a, b]⟩ ![0, 1] h4 v)) (broadcastInDim ⟨2, ![a, b]⟩ ![] h0 z) (ix2 p c)
      = max (x (ix2 p c) + v (ix2 (0 : Fin 1) c)) (z ix0) := by
  show max (x (ix2 p c) + broadcastInDim ⟨2, ![a, b]⟩ ![0, 1] h4 v (ix2 p c)) (broadcastInDim ⟨2, ![a, b]⟩ ![] h0 z (ix2 p c)) = _
  rw [broadcastInDim_1b_ab_apply, broadcastInDim_apply ![] h0 z (ix2 p c) ix0 (fun ax => ax.elim0)]

end Cert.LibRowBias

end
-- ==== Proof.Spec.lean ====
/-
  The four dense pieces of the two-layer graph convolution, each as ONE whole-array function in the host's own
  operations (so that the reference's term is built of exactly these), and each read at an index:
  • `dense X W`      — the projection X · W:            (i, e) ↦ Σ_k X(i, k) · W(k, e);
  • `biasMax A R`    — bias row and rectifier:          (i, e) ↦ max (A(i, e) + R(0, e), 0);
  • `halfSum X H`    — the residual mean:               j ↦ (X j + H j) · ½.
  The edge aggregation between them — gather the source rows, scale by the edge weights, scatter-add into the target
  rows — is carried as ONE function `aggOf H s d n` of the projected features H and of the source, target and weight
  arrays s, d, n; it is never opened: both programs apply it to equal arguments.
  `gcn` composes the pieces into the whole block, and the reference's result term is `gcn` of the arguments.
-/
import proofs.«151534_j26800595927569_1_alg».proof.ReferenceIdeal
import proofs.«151534_j26800595927569_1_alg».proof.Proof.Gen.ReferenceIdeal
import proofs.«151534_j26800595927569_1_alg».proof.Proof.Gen.ReferenceIdeal.Read
import proofs.«151534_j26800595927569_1_alg».proof.Proof.LibPlainDot
import proofs.«151534_j26800595927569_1_alg».proof.Proof.LibRowBias

noncomputable section

namespace Cert.Gcn

open Cert.ReferenceIdeal Cert.ReferenceIdeal.Facts₀ Cert.ReferenceIdeal.Read Idealize.ShloMosaic Idealize.ShloMosaic.ValueIdx

/-- The projection X · W, as the host's `dot_general` over the whole node table. -/
def dense (X : FVec Ideal S50000x128 .f32) (W : FVec Ideal S128x128 .f32) : FVec Ideal S50000x128 .f32 :=
  Host.dotGeneral dot_S50000x128_S128x128_S50000x128_1_0_0_1_n_n none X W

/-- Node i, feature e of the projection: the row i of X against the column e of W. -/
theorem dense_apply (X : FVec Ideal S50000x128 .f32) (W : FVec Ideal S128x128 .f32) (i : Fin 50000) (e : Fin 128) :
    dense X W (ix2 i e) = ∑ k : Fin 128, X (ix2 i k) * W (ix2 k e) :=
  dotGeneral_plain_apply 50000 128 128 none X W i e

/-- The same at any index j = (j 0, j 1). -/
theorem dense_at (X : FVec Ideal S50000x128 .f32) (W : FVec Ideal S128x128 .f32) (j : S50000x128.Idx) :
    dense X W j = ∑ k : Fin 128, X (ix2 (n0 := 50000) (n1 := 128) (j 0) k) * W (ix2 (n0 := 128) (n1 := 128) k (j 1)) := by
  obtain ⟨i, e, rfl⟩ : ∃ (i : Fin 50000) (e : Fin 128), j = ix2 i e := ⟨j 0, j 1, eq_ix2 j⟩
  exact dense_apply X W i e

/-- The bias row R (a [1, 128] array) added to every node's features, then the rectifier. -/
def biasMax (A : FVec Ideal S50000x128 .f32) (R : FVec Ideal S1x128 .f32) : FVec Ideal S50000x128 .f32 :=
  maximumf (addf A (broadcastInDim S50000x128 ![0, 1] bcast_S1x128_S50000x128_0_1 R))
    (broadcastInDim S50000x128 ![] bcast_S_S50000x128 (constant S_ .f32 0x00000000#32))

theorem biasMax_apply (A : FVec Ideal S50000x128 .f32) (R : FVec Ideal S1x128 .f32) (i : Fin 50000) (e : Fin 128) :
    biasMax A R (ix2 i e) = max (A (ix2 i e) + R (ix2 (0 : Fin 1) e)) (Ideal.ofBits .f32 0x00000000#32) :=
  Cert.LibRowBias.host_biasMax_apply A R bcast_S1x128_S50000x128_0_1 bcast_S_S50000x128 (constant S_ .f32 0x00000000#32) i e

/-- The same at any index j: the bias entry is the row's entry of column j 1. -/
theorem biasMax_at (A : FVec Ideal S50000x128 .f32) (R : FVec Ideal S1x128 .f32) (j : S50000x128.Idx) :
    biasMax A R j = max (A j + R (ix2 (n0 := 1) (n1 := 128) 0 (j 1))) (Ideal.ofBits .f32 0x00000000#32) := by
  obtain ⟨i, e, rfl⟩ : ∃ (i : Fin 50000) (e : Fin 128), j = ix2 i e := ⟨j 0, j 1, eq_ix2 j⟩
  exact biasMax_apply A R i e

/-- The residual mean (X + H) · ½. -/
def halfSum (X H : FVec Ideal S50000x128 .f32) : FVec Ideal S50000x128 .f32 :=
  mulf (addf X H) (broadcastInDim S50000x128 ![] bcast_S_S50000x128 (constant S_ .f32 0x3F000000#32))

theorem halfSum_apply (X H : FVec Ideal S50000x128 .f32) (j : S50000x128.Idx) :
    halfSum X H j = (X j + H j) * Ideal.ofBits .f32 0x3F000000#32 := by
  show (X j + H j) * broadcastInDim S50000x128 ![] bcast_S_S50000x128 (constant S_ .f32 0x3F000000#32) j = _
  rw [broadcastInDim_apply ![] bcast_S_S50000x128 (constant (F := Ideal) S_ .f32 0x3F000000#32) j ix0 (fun ax => ax.elim0)]
  rfl

/-- The edge aggregation: row `s e` of H (a negative index wrapped by the table's height), scaled by the weight `n e`,
    added into row `d e` of a zero table, over every edge e. -/
def aggOf (H : FVec Ideal S50000x128 .f32) (s d : IVec S1650000 32) (n : FVec Ideal S1650000 .f32) : FVec Ideal S50000x128 .f32 :=
  Host.scatterAdd scatter_S50000x128_S1650000x1_S1650000x128_1_0_0_1
    (broadcastInDim S50000x128 ![] bcast_S_S50000x128 (constant S_ .f32 0x00000000#32))
    (broadcastInDim S1650000x1 ![0] bcast_S1650000_S1650000x1_0 d)
    (mulf (Host.gather gather_S50000x128_S1650000x1_S1650000x128_1_0_n_n_0_1_1128 H
        (broadcastInDim S1650000x1 ![0] bcast_S1650000_S1650000x1_0
          (select (cmpi .slt s (broadcastInDim S1650000 ![] bcast_S_S1650000 (constantI S_ 32 0#32)))
            (addi s (broadcastInDim S1650000 ![] bcast_S_S1650000 (constantI S_ 32 50000#32))) s)))
      (broadcastInDim S1650000x128 ![0, 1] bcast_S1650000x1_S1650000x128_0_1
        (broadcastInDim S1650000x1 ![0] bcast_S1650000_S1650000x1_0 n)))

/-- The whole block: two convolutions (projection, aggregation, bias and rectifier) and the residual mean, of the node
    features x0, the edge list x1, and the two layers' weights and biases. The source, target and weight arrays are the
    reference's own stages of the edge list. -/
def gcn (x0 : FVec Ideal S50000x128 .f32) (x1 : IVec S2x1600000 32) (x2 : FVec Ideal S128x128 .f32) (x3 : FVec Ideal S128 .f32)
    (x4 : FVec Ideal S128x128 .f32) (x5 : FVec Ideal S128 .f32) : FVec Ideal S50000x128 .f32 :=
  halfSum x0 (biasMax (aggOf (dense (biasMax (aggOf (dense x0 x2)
        (val_main_v3 (F := Ideal) x1) (val_main_v6 (F := Ideal) x1) (val_main_v28 (F := Ideal) x1))
      (broadcastInDim S1x128 ![1] bcast_S128_S1x128_1 x3)) x4)
        (val_main_v3 (F := Ideal) x1) (val_main_v6 (F := Ideal) x1) (val_main_v28 (F := Ideal) x1))
    (broadcastInDim S1x128 ![1] bcast_S128_S1x128_1 x5))

/-- The reference's result, stage by stage, is `gcn` of its arguments: the same operations in the same order. -/
theorem ref_eq_gcn (x0 : FVec Ideal S50000x128 .f32) (x1 : IVec S2x1600000 32) (x2 : FVec Ideal S128x128 .f32) (x3 : FVec Ideal S128 .f32)
    (x4 : FVec Ideal S128x128 .f32) (x5 : FVec Ideal S128 .f32) :
    val_main_v67 (F := Ideal) x0 x1 x2 x3 x4 x5 = gcn x0 x1 x2 x3 x4 x5 := rfl

end Cert.Gcn

end
-- ==== Proof.KernelRun.lean ====
/-
  The kernel program's run with its result kept. The program is four pipelined regions among three stretches of host
  operations; every weakly fair execution ends with each unscoped buffer at the contents the last region leaves
  (the fold of the stretches and of the regions' write-backs from the launch memory). Read at the result buffer this
  gives the result array; read at the arguments, the launch contents.
-/
import proofs.«151534_j26800595927569_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last region's exit contents and the
    arguments as launched. -/
theorem run_result : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.Project1.lean ====
/-
  The first pipelined region: a [5000, 128] block of node features times the whole [128, 128] weight matrix, ten blocks.
  At the ideal values the reduced-precision casts are the identity and the product into the zero accumulator is the plain
  sum over the contracted axis, so block t of the output is block t of the whole-table projection X · W; the ten blocks
  tile the 50000 rows.
-/
import proofs.«151534_j26800595927569_1_alg».proof.Proof.Gen.KernelIdeal.Frame
import proofs.«151534_j26800595927569_1_alg».proof.Proof.Spec
import proofs.«151534_j26800595927569_1_alg».proof.Proof.LibPlainMatmul
import Idealize.ShloMosaic.Lib.Pipeline.Value
import Idealize.ShloMosaic.Lib.ValueIdx

set_option maxRecDepth 16384

noncomputable section
namespace Cert.KernelIdeal.Project1
open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem body_apply (x0 : Vec Ideal S5000x128 .f32) (x1 : Vec Ideal S128x128 .f32) (y : S5000x128.Idx) :
    k0_pay1 x0 x1 y = ∑ k : Fin 128, x0 (ix2 (n0 := 5000) (n1 := 128) (y 0) k) * x1 (ix2 (n0 := 128) (n1 := 128) k (y 1)) := by
  obtain ⟨p, e, rfl⟩ : ∃ (p : Fin 5000) (e : Fin 128), y = ix2 p e := ⟨y 0, y 1, eq_ix2 y⟩
  exact matmul_plain_zero_apply 5000 128 128 none (truncf .bf16 x0 bitsLt_bf16_f32) (truncf .bf16 x1 bitsLt_bf16_f32) p e

theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (0 : Fin 2) = t.val ∧ win0_2.index t (1 : Fin 2) = 0 :=
  (by decide +kernel : ∀ t : Fin grid0.N, _)

theorem flushed_eq (c : Dev nD) (t : Fin cfg0.N) :
    (dat0 V c).flushed 2 t = ((cfg0.win 2).blk t).view.read (Elt Ideal) (Cert.Gcn.dense (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext y
  show k0_pay1 (iblk0 V c 0 t) (iblk0 V c 1 t) y = Cert.Gcn.dense (V c main_arg0) (V c main_arg2) (((cfg0.win 2).blk t).view.emb y)
  refine (body_apply _ _ y).trans ?_
  rw [Cert.Gcn.dense_at]
  obtain ⟨e0, e1, e2, e3, e4, e5⟩ := idx_facts t
  refine Finset.sum_congr rfl fun k _ => ?_
  have h0 : ((cfg0.win 0).blk t).view.emb (ix2 (n0 := 5000) (n1 := 128) (y 0) k)
      = ix2 (n0 := 50000) (n1 := 128) ((((cfg0.win 2).blk t).view.emb y) 0) k := by
    funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  have h1 : ((cfg0.win 1).blk t).view.emb (ix2 (n0 := 128) (n1 := 128) k (y 1))
      = ix2 (n0 := 128) (n1 := 128) k ((((cfg0.win 2).blk t).view.emb y) 1) := by
    funext a; apply Fin.ext
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega
  have a0 : iblk0 V c 0 t (ix2 (n0 := 5000) (n1 := 128) (y 0) k)
      = (V c main_arg0 : FVec Ideal S50000x128 .f32) (ix2 (n0 := 50000) (n1 := 128) ((((cfg0.win 2).blk t).view.emb y) 0) k) :=
    congrArg (V c main_arg0 : FVec Ideal S50000x128 .f32) h0
  have a1 : iblk0 V c 1 t (ix2 (n0 := 128) (n1 := 128) k (y 1))
      = (V c main_arg2 : FVec Ideal S128x128 .f32) (ix2 (n0 := 128) (n1 := 128) k ((((cfg0.win 2).blk t).view.emb y) 1)) :=
    congrArg (V c main_arg2 : FVec Ideal S128x128 .f32) h1
  rw [a0, a1]

theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  obtain ⟨e0, e1, e2, e3, e4, e5⟩ := idx_facts t
  have e4' : win0_2.index t (0 : Fin 2) = (i 0).val / 5000 := e4
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the first region the output array is the projection of the node features by the first layer's weights, as the region found them: block t of the result is rows 5000·t … 5000·t + 4999, each entry the sum over the 128 contracted columns. -/
theorem final (c : Dev nD) : (dat0 V c).arrAt 2 cfg0.N = Cert.Gcn.dense (V c main_arg0) (V c main_arg2) :=
  (dat0 V c).arrAt_eq_of_cover 2 _ (fun t _ => flushed_eq V c t) cover

end Cert.KernelIdeal.Project1
end
-- ==== Proof.BiasRelu.lean ====
/-
  The second pipelined region: the first layer's epilogue. Each [5000, 128] block of aggregated features gets the bias
  row added to every row and the rectifier max (·, 0) applied; block t of the output is block t of that whole-table
  function, the bias row being the same [1, 128] block at every point.
-/
import proofs.«151534_j26800595927569_1_alg».proof.Proof.Gen.KernelIdeal.Frame
import proofs.«151534_j26800595927569_1_alg».proof.Proof.Spec
import Idealize.ShloMosaic.Lib.Pipeline.Value
import Idealize.ShloMosaic.Lib.ValueIdx

set_option maxRecDepth 16384

noncomputable section
namespace Cert.KernelIdeal.BiasRelu
open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem body_apply (x0 : Vec Ideal S5000x128 .f32) (x1 : Vec Ideal S1x128 .f32) (y : S5000x128.Idx) :
    k1_pay1 x0 x1 y = max (x0 y + x1 (ix2 (0 : Fin 1) (y 1))) (Ideal.ofBits .f32 0x00000000#32) := by
  obtain ⟨p, e, rfl⟩ : ∃ (p : Fin 5000) (e : Fin 128), y = ix2 p e := ⟨y 0, y 1, eq_ix2 y⟩
  exact Cert.LibRowBias.body_biasMax_apply x0 x1 shapeCasts_S5000x128_S5000x128 shapeCasts_S1x128_S1x128 broadcasts_S1x128_S5000x128 _ p e

theorem idx_facts : ∀ t : Fin cfg1.N, win1_0.index t (0 : Fin 2) = win1_2.index t (0 : Fin 2) ∧ win1_0.index t (1 : Fin 2) = win1_2.index t (1 : Fin 2)
    ∧ win1_1.index t (0 : Fin 2) = 0 ∧ win1_1.index t (1 : Fin 2) = 0 ∧ win1_2.index t (0 : Fin 2) = t.val ∧ win1_2.index t (1 : Fin 2) = 0 :=
  (by decide +kernel : ∀ t : Fin grid1.N, _)

theorem flushed_eq (c : Dev nD) (t : Fin cfg1.N) :
    (dat1 V c).flushed 2 t = ((cfg1.win 2).blk t).view.read (Elt Ideal) (Cert.Gcn.biasMax (V c main_v42) (V c main_v43)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  funext y
  show k1_pay1 (iblk1 V c 0 t) (iblk1 V c 1 t) y = Cert.Gcn.biasMax (V c main_v42) (V c main_v43) (((cfg1.win 2).blk t).view.emb y)
  refine (body_apply _ _ y).trans ?_
  rw [Cert.Gcn.biasMax_at]
  obtain ⟨e0, e1, e2, e3, e4, e5⟩ := idx_facts t
  have h0 : ((cfg1.win 0).blk t).view.emb y = ((cfg1.win 2).blk t).view.emb y := by
    funext a; apply Fin.ext
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 128 + 1 * (y 1).val = win1_2.index t (1 : Fin 2) * 128 + 1 * (y 1).val; omega
  have h1 : ((cfg1.win 1).blk t).view.emb (ix2 (n0 := 1) (n1 := 128) 0 (y 1))
      = ix2 (n0 := 1) (n1 := 128) 0 ((((cfg1.win 2).blk t).view.emb y) 1) := by
    funext a; apply Fin.ext
    match a with
    | ⟨0, _⟩ => show win1_1.index t (0 : Fin 2) * 1 + 1 * 0 = 0; omega
    | ⟨1, _⟩ => show win1_1.index t (1 : Fin 2) * 128 + 1 * (y 1).val = win1_2.index t (1 : Fin 2) * 128 + 1 * (y 1).val; omega
  have a0 : iblk1 V c 0 t y = (V c main_v42 : FVec Ideal S50000x128 .f32) (((cfg1.win 2).blk t).view.emb y) :=
    congrArg (V c main_v42 : FVec Ideal S50000x128 .f32) h0
  have a1 : iblk1 V c 1 t (ix2 (n0 := 1) (n1 := 128) 0 (y 1))
      = (V c main_v43 : FVec Ideal S1x128 .f32) (ix2 (n0 := 1) (n1 := 128) 0 ((((cfg1.win 2).blk t).view.emb y) 1)) :=
    congrArg (V c main_v43 : FVec Ideal S1x128 .f32) h1
  rw [a0, a1]

theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; omega⟩
  obtain ⟨e0, e1, e2, e3, e4, e5⟩ := idx_facts t
  have e4' : win1_2.index t (0 : Fin 2) = (i 0).val / 5000 := e4
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the output array is the bias-and-rectifier of the aggregated features as the region found them. -/
theorem final (c : Dev nD) : (dat1 V c).arrAt 2 cfg1.N = Cert.Gcn.biasMax (V c main_v42) (V c main_v43) :=
  (dat1 V c).arrAt_eq_of_cover 2 _ (fun t _ => flushed_eq V c t) cover

end Cert.KernelIdeal.BiasRelu
end
-- ==== Proof.Project2.lean ====
/-
  The third pipelined region: the second layer's projection, block by block as the first (an identity cast of the loaded
  block comes first). Block t of the output is block t of H · W over the whole table.
-/
import proofs.«151534_j26800595927569_1_alg».proof.Proof.Gen.KernelIdeal.Frame
import proofs.«151534_j26800595927569_1_alg».proof.Proof.Spec
import proofs.«151534_j26800595927569_1_alg».proof.Proof.LibPlainMatmul
import Idealize.ShloMosaic.Lib.Pipeline.Value
import Idealize.ShloMosaic.Lib.ValueIdx

set_option maxRecDepth 16384

noncomputable section
namespace Cert.KernelIdeal.Project2
open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem body_apply (x0 : Vec Ideal S5000x128 .f32) (x1 : Vec Ideal S128x128 .f32) (y : S5000x128.Idx) :
    k2_pay1 x0 x1 y = ∑ k : Fin 128, x0 (ix2 (n0 := 5000) (n1 := 128) (y 0) k) * x1 (ix2 (n0 := 128) (n1 := 128) k (y 1)) := by
  obtain ⟨p, e, rfl⟩ : ∃ (p : Fin 5000) (e : Fin 128), y = ix2 p e := ⟨y 0, y 1, eq_ix2 y⟩
  have hs : shapeCast S5000x128 x0 shapeCasts_S5000x128_S5000x128 = x0 := shapeCast_self x0 _
  have h := matmul_plain_zero_apply 5000 128 128 none
    (truncf .bf16 (shapeCast S5000x128 x0 shapeCasts_S5000x128_S5000x128) bitsLt_bf16_f32) (truncf .bf16 x1 bitsLt_bf16_f32) p e
  refine h.trans ?_
  rw [hs]
  rfl

theorem idx_facts : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0 ∧ win2_2.index t (0 : Fin 2) = t.val ∧ win2_2.index t (1 : Fin 2) = 0 :=
  (by decide +kernel : ∀ t : Fin grid2.N, _)

theorem flushed_eq (c : Dev nD) (t : Fin cfg2.N) :
    (dat2 V c).flushed 2 t = ((cfg2.win 2).blk t).view.read (Elt Ideal) (Cert.Gcn.dense (V c main_v44) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  funext y
  show k2_pay1 (iblk2 V c 0 t) (iblk2 V c 1 t) y = Cert.Gcn.dense (V c main_v44) (V c main_arg4) (((cfg2.win 2).blk t).view.emb y)
  refine (body_apply _ _ y).trans ?_
  rw [Cert.Gcn.dense_at]
  obtain ⟨e0, e1, e2, e3, e4, e5⟩ := idx_facts t
  refine Finset.sum_congr rfl fun k _ => ?_
  have h0 : ((cfg2.win 0).blk t).view.emb (ix2 (n0 := 5000) (n1 := 128) (y 0) k)
      = ix2 (n0 := 50000) (n1 := 128) ((((cfg2.win 2).blk t).view.emb y) 0) k := by
    funext a; apply Fin.ext
    match a with
    | ⟨0, _⟩ => show win2_0.index t (0 : Fin 2) * 5000 + 1 * (y 0).val = win2_2.index t (0 : Fin 2) * 5000 + 1 * (y 0).val; omega
    | ⟨1, _⟩ => show win2_0.index t (1 : Fin 2) * 128 + 1 * k.val = k.val; omega
  have h1 : ((cfg2.win 1).blk t).view.emb (ix2 (n0 := 128) (n1 := 128) k (y 1))
      = ix2 (n0 := 128) (n1 := 128) k ((((cfg2.win 2).blk t).view.emb y) 1) := by
    funext a; apply Fin.ext
    match a with
    | ⟨0, _⟩ => show win2_1.index t (0 : Fin 2) * 128 + 1 * k.val = k.val; omega
    | ⟨1, _⟩ => show win2_1.index t (1 : Fin 2) * 128 + 1 * (y 1).val = win2_2.index t (1 : Fin 2) * 128 + 1 * (y 1).val; omega
  have a0 : iblk2 V c 0 t (ix2 (n0 := 5000) (n1 := 128) (y 0) k)
      = (V c main_v44 : FVec Ideal S50000x128 .f32) (ix2 (n0 := 50000) (n1 := 128) ((((cfg2.win 2).blk t).view.emb y) 0) k) :=
    congrArg (V c main_v44 : FVec Ideal S50000x128 .f32) h0
  have a1 : iblk2 V c 1 t (ix2 (n0 := 128) (n1 := 128) k (y 1))
      = (V c main_arg4 : FVec Ideal S128x128 .f32) (ix2 (n0 := 128) (n1 := 128) k ((((cfg2.win 2).blk t).view.emb y) 1)) :=
    congrArg (V c main_arg4 : FVec Ideal S128x128 .f32) h1
  rw [a0, a1]

theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45).slice (win2_2.rect t)).set ↔ _
  rw [View.set_slice_whole, Rect.mem_set_unit]
  exact Iff.rfl

theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; omega⟩
  obtain ⟨e0, e1, e2, e3, e4, e5⟩ := idx_facts t
  have e4' : win2_2.index t (0 : Fin 2) = (i 0).val / 5000 := e4
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the third region the output array is the projection of the first layer's output by the second layer's weights, as the region found them. -/
theorem final (c : Dev nD) : (dat2 V c).arrAt 2 cfg2.N = Cert.Gcn.dense (V c main_v44) (V c main_arg4) :=
  (dat2 V c).arrAt_eq_of_cover 2 _ (fun t _ => flushed_eq V c t) cover

end Cert.KernelIdeal.Project2
end
-- ==== Proof.Residual.lean ====
/-
  The fourth pipelined region: the second layer's epilogue and the residual. Per [5000, 128] block: bias row, rectifier,
  the node features added, the sum halved. Block t of the result is block t of (X + max (A + bias, 0)) · ½ over the
  whole table.
-/
import proofs.«151534_j26800595927569_1_alg».proof.Proof.Gen.KernelIdeal.Frame
import proofs.«151534_j26800595927569_1_alg».proof.Proof.Spec
import Idealize.ShloMosaic.Lib.Pipeline.Value
import Idealize.ShloMosaic.Lib.ValueIdx

set_option maxRecDepth 16384

noncomputable section
namespace Cert.KernelIdeal.Residual
open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem body_apply (v0 : Vec Ideal S5000x128 .f32) (v2 : Vec Ideal S1x128 .f32) (v8 : Vec Ideal S5000x128 .f32) (y : S5000x128.Idx) :
    k3_pay1 v0 v2 v8 y = (v8 y + max (v0 y + v2 (ix2 (0 : Fin 1) (y 1))) (Ideal.ofBits .f32 0x00000000#32)) * Ideal.ofBits .f32 0x3F000000#32 := by
  obtain ⟨p, e, rfl⟩ : ∃ (p : Fin 5000) (e : Fin 128), y = ix2 p e := ⟨y 0, y 1, eq_ix2 y⟩
  have h := Cert.LibRowBias.body_biasMax_apply v0 v2 shapeCasts_S5000x128_S5000x128 shapeCasts_S1x128_S1x128 broadcasts_S1x128_S5000x128 (Ideal.ofBits .f32 0x00000000#32) p e
  exact congrArg (fun z => (v8 (ix2 p e) + z) * Ideal.ofBits .f32 0x3F000000#32) h

theorem idx_facts : ∀ t : Fin cfg3.N, win3_0.index t (0 : Fin 2) = win3_3.index t (0 : Fin 2) ∧ win3_0.index t (1 : Fin 2) = win3_3.index t (1 : Fin 2)
    ∧ win3_1.index t (0 : Fin 2) = win3_3.index t (0 : Fin 2) ∧ win3_1.index t (1 : Fin 2) = win3_3.index t (1 : Fin 2)
    ∧ win3_2.index t (0 : Fin 2) = 0 ∧ win3_2.index t (1 : Fin 2) = 0 ∧ win3_3.index t (0 : Fin 2) = t.val ∧ win3_3.index t (1 : Fin 2) = 0 :=
  (by decide +kernel : ∀ t : Fin grid3.N, _)

theorem flushed_eq (c : Dev nD) (t : Fin cfg3.N) :
    (dat3 V c).flushed 3 t = ((cfg3.win 3).blk t).view.read (Elt Ideal)
      (Cert.Gcn.halfSum (V c main_arg0) (Cert.Gcn.biasMax (V c main_v58) (V c main_v59))) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz]
  funext y
  show k3_pay1 (iblk3 V c 1 t) (iblk3 V c 2 t) (iblk3 V c 0 t) y
    = Cert.Gcn.halfSum (V c main_arg0) (Cert.Gcn.biasMax (V c main_v58) (V c main_v59)) (((cfg3.win 3).blk t).view.emb y)
  refine (body_apply _ _ _ y).trans ?_
  rw [Cert.Gcn.halfSum_apply, Cert.Gcn.biasMax_at]
  obtain ⟨e0, e1, e2, e3, e4, e5, e6, e7⟩ := idx_facts t
  have h0 : ((cfg3.win 0).blk t).view.emb y = ((cfg3.win 3).blk t).view.emb y := by
    funext a; apply Fin.ext
    match a with
    | ⟨0, _⟩ => show win3_0.index t (0 : Fin 2) * 5000 + 1 * (y 0).val = win3_3.index t (0 : Fin 2) * 5000 + 1 * (y 0).val; omega
    | ⟨1, _⟩ => show win3_0.index t (1 : Fin 2) * 128 + 1 * (y 1).val = win3_3.index t (1 : Fin 2) * 128 + 1 * (y 1).val; omega
  have h1 : ((cfg3.win 1).blk t).view.emb y = ((cfg3.win 3).blk t).view.emb y := by
    funext a; apply Fin.ext
    match a with
    | ⟨0, _⟩ => show win3_1.index t (0 : Fin 2) * 5000 + 1 * (y 0).val = win3_3.index t (0 : Fin 2) * 5000 + 1 * (y 0).val; omega
    | ⟨1, _⟩ => show win3_1.index t (1 : Fin 2) * 128 + 1 * (y 1).val = win3_3.index t (1 : Fin 2) * 128 + 1 * (y 1).val; omega
  have h2 : ((cfg3.win 2).blk t).view.emb (ix2 (n0 := 1) (n1 := 128) 0 (y 1))
      = ix2 (n0 := 1) (n1 := 128) 0 ((((cfg3.win 3).blk t).view.emb y) 1) := by
    funext a; apply Fin.ext
    match a with
    | ⟨0, _⟩ => show win3_2.index t (0 : Fin 2) * 1 + 1 * 0 = 0; omega
    | ⟨1, _⟩ => show win3_2.index t (1 : Fin 2) * 128 + 1 * (y 1).val = win3_3.index t (1 : Fin 2) * 128 + 1 * (y 1).val; omega
  have a0 : iblk3 V c 0 t y = (V c main_arg0 : FVec Ideal S50000x128 .f32) (((cfg3.win 3).blk t).view.emb y) :=
    congrArg (V c main_arg0 : FVec Ideal S50000x128 .f32) h0
  have a1 : iblk3 V c 1 t y = (V c main_v58 : FVec Ideal S50000x128 .f32) (((cfg3.win 3).blk t).view.emb y) :=
    congrArg (V c main_v58 : FVec Ideal S50000x128 .f32) h1
  have a2 : iblk3 V c 2 t (ix2 (n0 := 1) (n1 := 128) 0 (y 1))
      = (V c main_v59 : FVec Ideal S1x128 .f32) (ix2 (n0 := 1) (n1 := 128) 0 ((((cfg3.win 3).blk t).view.emb y) 1)) :=
    congrArg (V c main_v59 : FVec Ideal S1x128 .f32) h2
  rw [a0, a1, a2]

theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v60).slice (win3_3.rect t)).set ↔ _
  rw [View.set_slice_whole, Rect.mem_set_unit]
  exact Iff.rfl

theorem cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : grid3.N = 10 := N_3
  let t : Fin cfg3.N := ⟨(i 0).val / 5000, by show (i 0).val / 5000 < grid3.N; omega⟩
  obtain ⟨e0, e1, e2, e3, e4, e5, e6, e7⟩ := idx_facts t
  have e6' : win3_3.index t (0 : Fin 2) = (i 0).val / 5000 := e6
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- After the last region the result array is the residual mean of the node features and the second layer's
    bias-and-rectifier of the aggregated features, as the region found them. -/
theorem final (c : Dev nD) : (dat3 V c).arrAt 3 cfg3.N
    = Cert.Gcn.halfSum (V c main_arg0) (Cert.Gcn.biasMax (V c main_v58) (V c main_v59)) :=
  (dat3 V c).arrAt_eq_of_cover 3 _ (fun t _ => flushed_eq V c t) cover

end Cert.KernelIdeal.Residual
end
-- ==== Proof.Stretch0.lean ====
/-
  The first stretch of host operations, from any buffer contents W: it writes none of the six arguments, and the three
  arrays it computes from the edge list — the source and target of every edge with the self loops appended, and the
  symmetric degree weight of every edge — are the reference's own stages of the edge list (the same operations in the
  same order).
-/
import proofs.«151534_j26800595927569_1_alg».proof.Proof.Gen.KernelIdeal.Launch
import proofs.«151534_j26800595927569_1_alg».proof.Proof.Spec
import Idealize.ShloMosaic.Lib.StableHlo.Run

set_option maxRecDepth 16384

noncomputable section

namespace Cert.KernelIdeal.Stretch0

open Cert.KernelIdeal Cert.KernelIdeal.Gen Idealize.ShloMosaic Idealize.ShloMosaic.TcCoe Idealize.ShloMosaic.StableHlo

variable (W : Valuation τ sig (Elt Ideal))

set_option maxHeartbeats 8000000 in
theorem keeps_main_arg0 : StableHlo.after hostOps0 W (Proc.devRef .tc main_arg0) = W (Proc.devRef .tc main_arg0) := by
  after_results_simp

set_option maxHeartbeats 8000000 in
theorem keeps_main_arg1 : StableHlo.after hostOps0 W (Proc.devRef .tc main_arg1) = W (Proc.devRef .tc main_arg1) := by
  after_results_simp

set_option maxHeartbeats 8000000 in
theorem keeps_main_arg2 : StableHlo.after hostOps0 W (Proc.devRef .tc main_arg2) = W (Proc.devRef .tc main_arg2) := by
  after_results_simp

set_option maxHeartbeats 8000000 in
theorem keeps_main_arg3 : StableHlo.after hostOps0 W (Proc.devRef .tc main_arg3) = W (Proc.devRef .tc main_arg3) := by
  after_results_simp

set_option maxHeartbeats 8000000 in
theorem keeps_main_arg4 : StableHlo.after hostOps0 W (Proc.devRef .tc main_arg4) = W (Proc.devRef .tc main_arg4) := by
  after_results_simp

set_option maxHeartbeats 8000000 in
theorem keeps_main_arg5 : StableHlo.after hostOps0 W (Proc.devRef .tc main_arg5) = W (Proc.devRef .tc main_arg5) := by
  after_results_simp

set_option maxHeartbeats 8000000 in
theorem at_main_v3 : StableHlo.after hostOps0 W (Proc.devRef .tc main_v3)
    = Cert.ReferenceIdeal.Read.val_main_v3 (F := Ideal) (W (Proc.devRef .tc main_arg1)) := by
  after_results_simp <;> rfl

set_option maxHeartbeats 8000000 in
theorem at_main_v6 : StableHlo.after hostOps0 W (Proc.devRef .tc main_v6)
    = Cert.ReferenceIdeal.Read.val_main_v6 (F := Ideal) (W (Proc.devRef .tc main_arg1)) := by
  after_results_simp <;> rfl

set_option maxHeartbeats 8000000 in
theorem at_main_v28 : StableHlo.after hostOps0 W (Proc.devRef .tc main_v28)
    = Cert.ReferenceIdeal.Read.val_main_v28 (F := Ideal) (W (Proc.devRef .tc main_arg1)) := by
  after_results_simp <;> rfl

end Cert.KernelIdeal.Stretch0

end
-- ==== Proof.Stretch1.lean ====
/-
  The second stretch of host operations (between the first projection and the first epilogue), from any buffer
  contents W: the first layer's aggregation and the reshape of the first bias; it writes none of the buffers later
  stretches and regions read from before it.
-/
import proofs.«151534_j26800595927569_1_alg».proof.Proof.Gen.KernelIdeal.Launch
import proofs.«151534_j26800595927569_1_alg».proof.Proof.Spec
import Idealize.ShloMosaic.Lib.StableHlo.Run

set_option maxRecDepth 16384

noncomputable section

namespace Cert.KernelIdeal.Stretch1

open Cert.KernelIdeal Cert.KernelIdeal.Gen Idealize.ShloMosaic Idealize.ShloMosaic.TcCoe Idealize.ShloMosaic.StableHlo

variable (W : Valuation τ sig (Elt Ideal))

set_option maxHeartbeats 8000000 in
/-- The aggregated features: the gather / scale / scatter-add of the projected features and of the source, target and
    weight arrays the stretch finds. -/
theorem at_main_v42 : StableHlo.after hostOps1 W (Proc.devRef .tc main_v42)
    = Cert.Gcn.aggOf (W (Proc.devRef .tc main_v29)) (W (Proc.devRef .tc main_v3)) (W (Proc.devRef .tc main_v6)) (W (Proc.devRef .tc main_v28)) := by
  after_results_simp <;> rfl

set_option maxHeartbeats 8000000 in
/-- The bias vector cast to a row. -/
theorem at_main_v43 : StableHlo.after hostOps1 W (Proc.devRef .tc main_v43) = shapeCast S1x128 (W (Proc.devRef .tc main_arg3)) shapeCasts_S128_S1x128 := by
  after_results_simp <;> rfl

set_option maxHeartbeats 8000000 in
theorem keeps_main_arg0 : StableHlo.after hostOps1 W (Proc.devRef .tc main_arg0) = W (Proc.devRef .tc main_arg0) := by
  after_results_simp

set_option maxHeartbeats 8000000 in
theorem keeps_main_arg4 : StableHlo.after hostOps1 W (Proc.devRef .tc main_arg4) = W (Proc.devRef .tc main_arg4) := by
  after_results_simp

set_option maxHeartbeats 8000000 in
theorem keeps_main_arg5 : StableHlo.after hostOps1 W (Proc.devRef .tc main_arg5) = W (Proc.devRef .tc main_arg5) := by
  after_results_simp

set_option maxHeartbeats 8000000 in
theorem keeps_main_v3 : StableHlo.after hostOps1 W (Proc.devRef .tc main_v3) = W (Proc.devRef .tc main_v3) := by
  after_results_simp

set_option maxHeartbeats 8000000 in
theorem keeps_main_v6 : StableHlo.after hostOps1 W (Proc.devRef .tc main_v6) = W (Proc.devRef .tc main_v6) := by
  after_results_simp

set_option maxHeartbeats 8000000 in
theorem keeps_main_v28 : StableHlo.after hostOps1 W (Proc.devRef .tc main_v28) = W (Proc.devRef .tc main_v28) := by
  after_results_simp

end Cert.KernelIdeal.Stretch1

end
-- ==== Proof.Stretch3.lean ====
/-
  The third stretch of host operations (between the second projection and the last region), from any buffer contents
  W: the second layer's aggregation and the reshape of the second bias; it does not write the node features.
-/
import proofs.«151534_j26800595927569_1_alg».proof.Proof.Gen.KernelIdeal.Launch
import proofs.«151534_j26800595927569_1_alg».proof.Proof.Spec
import Idealize.ShloMosaic.Lib.StableHlo.Run

set_option maxRecDepth 16384

noncomputable section

namespace Cert.KernelIdeal.Stretch3

open Cert.KernelIdeal Cert.KernelIdeal.Gen Idealize.ShloMosaic Idealize.ShloMosaic.TcCoe Idealize.ShloMosaic.StableHlo

variable (W : Valuation τ sig (Elt Ideal))

set_option maxHeartbeats 8000000 in
/-- The aggregated features: the gather / scale / scatter-add of the projected features and of the source, target and
    weight arrays the stretch finds. -/
theorem at_main_v58 : StableHlo.after hostOps3 W (Proc.devRef .tc main_v58)
    = Cert.Gcn.aggOf (W (Proc.devRef .tc main_v45)) (W (Proc.devRef .tc main_v3)) (W (Proc.devRef .tc main_v6)) (W (Proc.devRef .tc main_v28)) := by
  after_results_simp <;> rfl

set_option maxHeartbeats 8000000 in
/-- The bias vector cast to a row. -/
theorem at_main_v59 : StableHlo.after hostOps3 W (Proc.devRef .tc main_v59) = shapeCast S1x128 (W (Proc.devRef .tc main_arg5)) shapeCasts_S128_S1x128 := by
  after_results_simp <;> rfl

set_option maxHeartbeats 8000000 in
theorem keeps_main_arg0 : StableHlo.after hostOps3 W (Proc.devRef .tc main_arg0) = W (Proc.devRef .tc main_arg0) := by
  after_results_simp

end Cert.KernelIdeal.Stretch3

end
-- ==== Proof.Chain.lean ====
/-
  The kernel program's result array, read back through the program. Between the launch memory and the result stand
  three stretches of host operations and four pipelined regions; the contents of a buffer at a later boundary are read
  back, stretch by stretch and region by region, to earlier ones:
  • a buffer no region's window names and no later host operation writes keeps its contents (the weights and biases, and
    the source, target and edge-weight arrays computed by the first stretch); the node features, which two regions read
    through an input window, are left as launched by every region and stretch;
  • each region's output array is its whole-table function of the arrays it found (the four region modules);
  • each aggregation stretch is the gather / scale / scatter-add function `aggOf` of the buffers it reads, and the bias
    reshape is a cast of the bias vector to a row, which is the vector broadcast to a row.
  Composed, the result array is `gcn` of the launch contents of the arguments: the reference's own function.
-/
import proofs.«151534_j26800595927569_1_alg».proof.Proof.Gen.KernelIdeal.Frame
import proofs.«151534_j26800595927569_1_alg».proof.Proof.Spec
import proofs.«151534_j26800595927569_1_alg».proof.Proof.Project1
import proofs.«151534_j26800595927569_1_alg».proof.Proof.BiasRelu
import proofs.«151534_j26800595927569_1_alg».proof.Proof.Project2
import proofs.«151534_j26800595927569_1_alg».proof.Proof.Residual
import proofs.«151534_j26800595927569_1_alg».proof.Proof.Stretch0
import proofs.«151534_j26800595927569_1_alg».proof.Proof.Stretch1
import proofs.«151534_j26800595927569_1_alg».proof.Proof.Stretch3
import proofs.«151534_j26800595927569_1_alg».proof.Proof.LibRowBias

set_option maxRecDepth 16384

noncomputable section

namespace Cert.KernelIdeal.Chain

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg) (c : Dev nD)

/-! ## The regions' outputs at their exits -/

theorem out0 : W2 m ρ c (Proc.devRef .tc main_v29) = Cert.Gcn.dense (W1 m ρ c (Proc.devRef .tc main_arg0)) (W1 m ρ c (Proc.devRef .tc main_arg2)) :=
  (W2_arr m ρ c 2).trans (Cert.KernelIdeal.Project1.final (V1 m ρ) c)

theorem out1 : W4 m ρ c (Proc.devRef .tc main_v44) = Cert.Gcn.biasMax (W3 m ρ c (Proc.devRef .tc main_v42)) (W3 m ρ c (Proc.devRef .tc main_v43)) :=
  (W4_arr m ρ c 2).trans (Cert.KernelIdeal.BiasRelu.final (V3 m ρ) c)

theorem out2 : W5 m ρ c (Proc.devRef .tc main_v45) = Cert.Gcn.dense (W4 m ρ c (Proc.devRef .tc main_v44)) (W4 m ρ c (Proc.devRef .tc main_arg4)) :=
  (W5_arr m ρ c 2).trans (Cert.KernelIdeal.Project2.final (V4 m ρ) c)

theorem out3 : W7 m ρ c (Proc.devRef .tc main_v60)
    = Cert.Gcn.halfSum (W6 m ρ c (Proc.devRef .tc main_arg0)) (Cert.Gcn.biasMax (W6 m ρ c (Proc.devRef .tc main_v58)) (W6 m ρ c (Proc.devRef .tc main_v59))) :=
  (W7_arr m ρ c 3).trans (Cert.KernelIdeal.Residual.final (V6 m ρ) c)

/-! ## Buffers that keep their contents -/

/-- A buffer no window of the first three regions names holds at the third region's exit what it held after the first
    stretch, the second stretch not writing it (`hh`). -/
theorem kept (b : Ref sig .tc) (h0 : ∀ w, Pipeline.arrRef spec0 w ≠ b) (h1 : ∀ w, Pipeline.arrRef spec1 w ≠ b)
    (h2 : ∀ w, Pipeline.arrRef spec2 w ≠ b)
    (hh : StableHlo.after hostOps1 (W2 m ρ c) (Proc.devRef .tc b) = W2 m ρ c (Proc.devRef .tc b)) :
    W5 m ρ c (Proc.devRef .tc b) = W1 m ρ c (Proc.devRef .tc b) :=
  (W5_of_ne m ρ c b h2).trans ((W4_of_ne m ρ c b h1).trans (hh.trans (W2_of_ne m ρ c b h0)))

theorem kept5_main_arg5 : W5 m ρ c (Proc.devRef .tc main_arg5) = W1 m ρ c (Proc.devRef .tc main_arg5) :=
  kept m ρ c main_arg5 (by decide) (by decide) (by decide) (Cert.KernelIdeal.Stretch1.keeps_main_arg5 (W2 m ρ c))
theorem kept5_main_v3 : W5 m ρ c (Proc.devRef .tc main_v3) = W1 m ρ c (Proc.devRef .tc main_v3) :=
  kept m ρ c main_v3 (by decide) (by decide) (by decide) (Cert.KernelIdeal.Stretch1.keeps_main_v3 (W2 m ρ c))
theorem kept5_main_v6 : W5 m ρ c (Proc.devRef .tc main_v6) = W1 m ρ c (Proc.devRef .tc main_v6) :=
  kept m ρ c main_v6 (by decide) (by decide) (by decide) (Cert.KernelIdeal.Stretch1.keeps_main_v6 (W2 m ρ c))
theorem kept5_main_v28 : W5 m ρ c (Proc.devRef .tc main_v28) = W1 m ρ c (Proc.devRef .tc main_v28) :=
  kept m ρ c main_v28 (by decide) (by decide) (by decide) (Cert.KernelIdeal.Stretch1.keeps_main_v28 (W2 m ρ c))

theorem kept4_main_arg4 : W4 m ρ c (Proc.devRef .tc main_arg4) = W1 m ρ c (Proc.devRef .tc main_arg4) :=
  (W4_of_ne m ρ c main_arg4 (by decide)).trans
    ((Cert.KernelIdeal.Stretch1.keeps_main_arg4 (W2 m ρ c)).trans (W2_of_ne m ρ c main_arg4 (by decide)))
theorem kept2_main_arg3 : W2 m ρ c (Proc.devRef .tc main_arg3) = W1 m ρ c (Proc.devRef .tc main_arg3) := W2_of_ne m ρ c main_arg3 (by decide)
theorem kept2_main_v3 : W2 m ρ c (Proc.devRef .tc main_v3) = W1 m ρ c (Proc.devRef .tc main_v3) := W2_of_ne m ρ c main_v3 (by decide)
theorem kept2_main_v6 : W2 m ρ c (Proc.devRef .tc main_v6) = W1 m ρ c (Proc.devRef .tc main_v6) := W2_of_ne m ρ c main_v6 (by decide)
theorem kept2_main_v28 : W2 m ρ c (Proc.devRef .tc main_v28) = W1 m ρ c (Proc.devRef .tc main_v28) := W2_of_ne m ρ c main_v28 (by decide)

/-- The node features at the last region's entry are as launched: the last region reads them through an input window,
    which it leaves as found, and at its exit they are as launched. -/
theorem feat6 : W6 m ρ c (Proc.devRef .tc main_arg0) = (m ((c.tc : Thread nD τ).loc main_arg0)) :=
  ((W7_arr m ρ c 0).trans (((dat3 (V6 m ρ) c).arrAt_in 0 rfl _).trans (A_eq3 (V6 m ρ) c 0))).symm.trans (W7_main_arg0 m ρ c)

/-! ## After the first stretch -/

theorem first_main_arg0 : W1 m ρ c (Proc.devRef .tc main_arg0) = (m ((c.tc : Thread nD τ).loc main_arg0)) :=
  Cert.KernelIdeal.Stretch0.keeps_main_arg0 (W0 m ρ c)
theorem first_main_arg2 : W1 m ρ c (Proc.devRef .tc main_arg2) = (m ((c.tc : Thread nD τ).loc main_arg2)) :=
  Cert.KernelIdeal.Stretch0.keeps_main_arg2 (W0 m ρ c)
theorem first_main_arg3 : W1 m ρ c (Proc.devRef .tc main_arg3) = (m ((c.tc : Thread nD τ).loc main_arg3)) :=
  Cert.KernelIdeal.Stretch0.keeps_main_arg3 (W0 m ρ c)
theorem first_main_arg4 : W1 m ρ c (Proc.devRef .tc main_arg4) = (m ((c.tc : Thread nD τ).loc main_arg4)) :=
  Cert.KernelIdeal.Stretch0.keeps_main_arg4 (W0 m ρ c)
theorem first_main_arg5 : W1 m ρ c (Proc.devRef .tc main_arg5) = (m ((c.tc : Thread nD τ).loc main_arg5)) :=
  Cert.KernelIdeal.Stretch0.keeps_main_arg5 (W0 m ρ c)
theorem first_main_v3 : W1 m ρ c (Proc.devRef .tc main_v3) = Cert.ReferenceIdeal.Read.val_main_v3 (F := Ideal) (m ((c.tc : Thread nD τ).loc main_arg1)) :=
  Cert.KernelIdeal.Stretch0.at_main_v3 (W0 m ρ c)
theorem first_main_v6 : W1 m ρ c (Proc.devRef .tc main_v6) = Cert.ReferenceIdeal.Read.val_main_v6 (F := Ideal) (m ((c.tc : Thread nD τ).loc main_arg1)) :=
  Cert.KernelIdeal.Stretch0.at_main_v6 (W0 m ρ c)
theorem first_main_v28 : W1 m ρ c (Proc.devRef .tc main_v28) = Cert.ReferenceIdeal.Read.val_main_v28 (F := Ideal) (m ((c.tc : Thread nD τ).loc main_arg1)) :=
  Cert.KernelIdeal.Stretch0.at_main_v28 (W0 m ρ c)

/-! ## The result -/

/-- The kernel program's result array is `gcn` of the launch contents of its six arguments. -/
theorem result_eq : W7 m ρ c (Proc.devRef .tc main_v60)
    = Cert.Gcn.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e29 : W2 m ρ c (Proc.devRef .tc main_v29) = Cert.Gcn.dense (m ((c.tc : Thread nD τ).loc main_arg0)) (m ((c.tc : Thread nD τ).loc main_arg2)) := by
    rw [out0, first_main_arg0, first_main_arg2]
  have e42 : W3 m ρ c (Proc.devRef .tc main_v42) = _ := Cert.KernelIdeal.Stretch1.at_main_v42 (W2 m ρ c)
  rw [e29, kept2_main_v3, kept2_main_v6, kept2_main_v28, first_main_v3, first_main_v6, first_main_v28] at e42
  have e43 : W3 m ρ c (Proc.devRef .tc main_v43) = _ := Cert.KernelIdeal.Stretch1.at_main_v43 (W2 m ρ c)
  rw [kept2_main_arg3, first_main_arg3,
    Cert.LibRowBias.shapeCast_row_eq_broadcastInDim _ _ Cert.ReferenceIdeal.Facts₀.bcast_S128_S1x128_1] at e43
  have e44 := out1 m ρ c
  rw [e42, e43] at e44
  have e45 := out2 m ρ c
  rw [e44, kept4_main_arg4, first_main_arg4] at e45
  have e58 : W6 m ρ c (Proc.devRef .tc main_v58) = _ := Cert.KernelIdeal.Stretch3.at_main_v58 (W5 m ρ c)
  rw [e45, kept5_main_v3, kept5_main_v6, kept5_main_v28, first_main_v3, first_main_v6, first_main_v28] at e58
  have e59 : W6 m ρ c (Proc.devRef .tc main_v59) = _ := Cert.KernelIdeal.Stretch3.at_main_v59 (W5 m ρ c)
  rw [kept5_main_arg5, first_main_arg5,
    Cert.LibRowBias.shapeCast_row_eq_broadcastInDim _ _ Cert.ReferenceIdeal.Facts₀.bcast_S128_S1x128_1] at e59
  have e60 := out3 m ρ c
  rw [feat6, e58, e59] at e60
  exact e60

end Cert.KernelIdeal.Chain

end
-- ==== Proof.lean ====
/-
  A residual block of two graph convolutions over 50000 nodes with 128 features and 1.6 million edges (plus one self
  loop per node): each layer projects the node features by a [128, 128] weight matrix, gathers the projected row of
  every edge's source, scales it by the symmetric degree weight of the edge, adds it into the row of the edge's target,
  adds a bias and rectifies; the block returns the mean of the input features and the second layer's output.

  The kernel program computes the two projections and the two epilogues in four pipelined regions over blocks of 5000
  rows and leaves the degree weights and the two aggregations to host operations; the reference computes everything by
  host operations. At the ideal values the two results are ONE function of the arguments:
  • a block product into a zero accumulator (its reduced-precision casts the identity) is the block of the whole-table
    product, entry by entry the same sum over the 128 contracted columns (Project1, Project2);
  • the epilogues are pointwise, the bias row the same at every block (BiasRelu, Residual);
  • the aggregation between them is the same gather / scale / scatter-add of equal arguments in both programs and is
    never opened (Spec `aggOf`), and a bias vector cast to a row is the vector broadcast to a row (LibRowBias);
  • Chain reads the kernel program's result buffer back through its stretches and regions to the arguments, and the
    reference's result term is the same composition (Spec `ref_eq_gcn`).
  No algebraic law of the extended reals is used beyond reading both products as the same sum, so the finiteness
  precondition is never opened. The three frames are the generated runs; nothing was rewritten by the idealization.
-/
import proofs.«151534_j26800595927569_1_alg».proof.Defs
import proofs.«151534_j26800595927569_1_alg».proof.Proof.Gen.Kernel
import proofs.«151534_j26800595927569_1_alg».proof.Proof.Gen.Kernel.Frame
import proofs.«151534_j26800595927569_1_alg».proof.Proof.Gen.KernelIdeal
import proofs.«151534_j26800595927569_1_alg».proof.Proof.Gen.KernelIdeal.Frame
import proofs.«151534_j26800595927569_1_alg».proof.Proof.Gen.ReferenceIdeal
import proofs.«151534_j26800595927569_1_alg».proof.Proof.Gen.Pre_finite_inputs
import proofs.«151534_j26800595927569_1_alg».proof.Proof.Gen.ReferenceIdeal.Run
import proofs.«151534_j26800595927569_1_alg».proof.Proof.Gen.ReferenceIdeal.Read
import proofs.«151534_j26800595927569_1_alg».proof.Proof.Spec
import proofs.«151534_j26800595927569_1_alg».proof.Proof.KernelRun
import proofs.«151534_j26800595927569_1_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at `gcn` of the (agreeing) arguments. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result_eq m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v67_eq, Cert.Gcn.ref_eq_gcn]
    obtain ⟨a0, a1, a2, a3, a4, a5⟩ := hagree c
    rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
